-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel

variable [Facts]

def fn_part1 {F : FTy → Type} [FloatOps F] (main_v13 : IVec S_ 1) (main_v16 : IVec S32x256x64x64 1) : IVec S_ 1 :=
  let main_c_5 : IVec S_ 1 := constantI S_ 1 1#1
  let main_v17 : IVec S_ 1 := (fun x v => Host.reduce IntOp.andi x v reducesTo_S32x256x64x64_S_d0_1_2_3 h_S_) main_v16 main_c_5
  let main_v18 : IVec S_ 1 := andi main_v13 main_v17
  main_v18

def fn {F : FTy → Type} [FloatOps F] (main_arg0 : FVec F S32x256x64x64 .f32) (main_arg1 : FVec F S32x256x64x64 .f32) (main_arg2 : FVec F S32x256x64x64 .f32) (main_arg3 : FVec F S32x256x64x64 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x256x64x64 .f32 := Host.absf main_arg1
  let main_cst_0 : FVec F S_ .f32 := constant S_ .f32 0x7F800000#32
  let main_v5 : FVec F S32x256x64x64 .f32 := broadcastInDim S32x256x64x64 ![] bcast_S_S32x256x64x64 main_cst_0
  let main_v6 : IVec S32x256x64x64 1 := cmpf .olt main_v4 main_v5
  let main_c_1 : IVec S_ 1 := constantI S_ 1 1#1
  let main_v7 : IVec S_ 1 := (fun x v => Host.reduce IntOp.andi x v reducesTo_S32x256x64x64_S_d0_1_2_3 h_S_) main_v6 main_c_1
  let main_v8 : IVec S_ 1 := andi main_v3 main_v7
  let main_v9 : FVec F S32x256x64x64 .f32 := Host.absf main_arg2
  let main_cst_2 : FVec F S_ .f32 := constant S_ .f32 0x7F800000#32
  let main_v10 : FVec F S32x256x64x64 .f32 := broadcastInDim S32x256x64x64 ![] bcast_S_S32x256x64x64 main_cst_2
  let main_v11 : IVec S32x256x64x64 1 := cmpf .olt main_v9 main_v10
  let main_c_3 : IVec S_ 1 := constantI S_ 1 1#1
  let main_v12 : IVec S_ 1 := (fun x v => Host.reduce IntOp.andi x v reducesTo_S32x256x64x64_S_d0_1_2_3 h_S_) main_v11 main_c_3
  let main_v13 : IVec S_ 1 := andi main_v8 main_v12
  let main_v14 : FVec F S32x256x64x64 .f32 := Host.absf main_arg3
  let main_cst_4 : FVec F S_ .f32 := constant S_ .f32 0x7F800000#32
  let main_v15 : FVec F S32x256x64x64 .f32 := broadcastInDim S32x256x64x64 ![] bcast_S_S32x256x64x64 main_cst_4
  let main_v16 : IVec S32x256x64x64 1 := cmpf .olt main_v14 main_v15
  fn_part1 (F := F) main_v13 main_v16
-- ==== Kernel.lean ====
abbrev S32x256x64x64 : Shape := ⟨4, ![32, 256, 64, 64]⟩
abbrev S8192x4096 : Shape := ⟨2, ![8192, 4096]⟩
abbrev S256x4096 : Shape := ⟨2, ![256, 4096]⟩

abbrev nBuf : Space → Nat
  | .hbm => 10
  | .vmem => 10
  | .smem => 0
  | _ => 0

abbrev bufTy : (tb : Table) → Fin (tcTables nBuf tb) → BufTy
  | .hbm, ⟨0, _⟩ => ⟨S32x256x64x64, .f32⟩
  | .hbm, ⟨1, _⟩ => ⟨S32x256x64x64, .f32⟩
  | .hbm, ⟨2, _⟩ => ⟨S32x256x64x64, .f32⟩
  | .hbm, ⟨3, _⟩ => ⟨S32x256x64x64, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S32x256x64x64, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x256x64x64_S8192x4096 : S32x256x64x64.ShapeCasts S8192x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S8192x4096_S32x256x64x64 : S8192x4096.ShapeCasts S32x256x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .f32 = 32 ∨ (Rect.block (s := S8192x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)

variable [Facts₀]

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩

abbrev nBuf : Space → Nat
  | .hbm => 7
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S32x256x64x64, .f32⟩
  | .hbm, ⟨2, _⟩ => ⟨S32x256x64x64, .f32⟩
  | .hbm, ⟨3, _⟩ => ⟨S32x256x64x64, .f32⟩
  | .hbm, ⟨4, _⟩ => ⟨S32x256x64x64, .f32⟩
  | .hbm, ⟨5, _⟩ => ⟨S32x256x64x64, .f32⟩
  | .hbm, ⟨6, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where

variable [Facts₀]

class Facts : Prop extends Facts₀ where

variable [Facts]
-- ==== Proof.MaxSpec.lean ====
/-
  The elementwise maximum of four arrays, grouped as max (max a b) (max c d), as ONE function of the four arrays over
  any shape, and that function seen through a change of shape.

  A change of shape only renames indices (the element at row-major position p stays at position p), and the maximum is
  taken index by index. So re-laying the four arrays, taking the maxima there, and re-laying the result back gives the
  maxima taken in place: the two changes of shape cancel, and nothing is asked of the numbers themselves (no
  finiteness, no order law — the same three maxima are applied to the same three pairs of entries).
-/
import Idealize.ShloMosaic.PureOps.Vector
import Idealize.ShloMosaic.Lib.Pipeline.Value

noncomputable section

namespace Cert.MaxOfFour

open Idealize.ShloMosaic

variable {F : FTy → Type} [FloatOps F]

/-- The maximum of four arrays of one shape, index by index, grouped in two pairs. -/
def max4 {s : Shape} (a b c d : FVec F s .f32) : FVec F s .f32 :=
  maximumf (maximumf a b) (maximumf c d)

/-- At an index it is the maximum of the two pairwise maxima of the four entries there. -/
theorem max4_apply {s : Shape} (a b c d : FVec F s .f32) (i : s.Idx) :
    max4 a b c d i = FloatOps.maximumf (FloatOps.maximumf (a i) (b i)) (FloatOps.maximumf (c i) (d i)) := rfl

/-- Taking the maxima of four re-laid arrays is re-laying the maxima: both read the four arrays at the one index
    with the same row-major position. -/
theorem max4_shapeCast {s t : Shape} (a b c d : FVec F s .f32) (h : s.ShapeCasts t) :
    max4 (shapeCast t a h) (shapeCast t b h) (shapeCast t c h) (shapeCast t d h) = shapeCast t (max4 a b c d) h := rfl

/-- Re-lay the four arrays, take the maxima, re-lay back: the maxima taken in place. -/
theorem shapeCast_max4_shapeCast {s t : Shape} (a b c d : FVec F s .f32) (h : s.ShapeCasts t) (h' : t.ShapeCasts s) :
    shapeCast s (max4 (shapeCast t a h) (shapeCast t b h) (shapeCast t c h) (shapeCast t d h)) h' = max4 a b c d := by
  rw [max4_shapeCast, shapeCast_shapeCast]

end Cert.MaxOfFour

end
-- ==== Proof.KernelValue.lean ====
/-
  What the idealized kernel's result array holds after the run, as one function of the four argument arrays.

  The program re-lays each argument f32[32,256,64,64] as a matrix f32[8192,4096] (same row-major order), runs one
  region over 32 grid points, and re-lays the region's result matrix back to [32,256,64,64]. At grid point t every
  window, the four inputs' and the output's alike, is the block of rows 256·t … 256·t + 255 with all 4096 columns. The
  body loads the four input blocks whole, takes max (max x0 x1) (max x2 x3) index by index and stores it over the whole
  output block. So what point t writes back is rows 256·t … 256·t + 255 of ONE matrix, the maxima of the four re-laid
  arguments; the 32 row blocks tile the 8192 rows (row r lies in block r / 256), so the result matrix ends as that
  matrix; and re-laying it back cancels against the re-laying of the arguments (the maxima are taken index by index).
-/
import proofs.«131689_j14259291423428_2_alg».proof.Proof.Gen.KernelIdeal.Frame
import proofs.«131689_j14259291423428_2_alg».proof.Proof.MaxSpec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.MaxValue

open Cert.KernelIdeal Cert.KernelIdeal.Gen Cert.MaxOfFour

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-- The body's stored value is the maxima of its four loaded blocks (its changes of shape are to the same shape). -/
theorem payload_eq (x0 x1 x2 x3 : Vec F S256x4096 .f32) : k0_pay1 x0 x1 x2 x3 = max4 x0 x1 x2 x3 := by
  unfold k0_pay1 max4
  simp only [shapeCast_self]

/-- Each matrix the region reads is the corresponding argument re-laid, by the host line before the region. -/
theorem V_v0 (c : Dev nD) : (V m c main_v0 : S8192x4096.Idx → Elt F .f32)
    = shapeCast S8192x4096 (m ((c : Thread nD τ).loc main_arg0)) shapeCasts_S32x256x64x64_S8192x4096 := by
  show StableHlo.after hostOps0 (fun b => m (c, b)) (Proc.devRef .tc main_v0) = _
  after_results
  rfl
theorem V_v1 (c : Dev nD) : (V m c main_v1 : S8192x4096.Idx → Elt F .f32)
    = shapeCast S8192x4096 (m ((c : Thread nD τ).loc main_arg1)) shapeCasts_S32x256x64x64_S8192x4096 := by
  show StableHlo.after hostOps0 (fun b => m (c, b)) (Proc.devRef .tc main_v1) = _
  after_results
  rfl
theorem V_v2 (c : Dev nD) : (V m c main_v2 : S8192x4096.Idx → Elt F .f32)
    = shapeCast S8192x4096 (m ((c : Thread nD τ).loc main_arg2)) shapeCasts_S32x256x64x64_S8192x4096 := by
  show StableHlo.after hostOps0 (fun b => m (c, b)) (Proc.devRef .tc main_v2) = _
  after_results
  rfl
theorem V_v3 (c : Dev nD) : (V m c main_v3 : S8192x4096.Idx → Elt F .f32)
    = shapeCast S8192x4096 (m ((c : Thread nD τ).loc main_arg3)) shapeCasts_S32x256x64x64_S8192x4096 := by
  show StableHlo.after hostOps0 (fun b => m (c, b)) (Proc.devRef .tc main_v3) = _
  after_results
  rfl

/-- The matrix of maxima of the four matrices the region reads. -/
abbrev maxMatrix (c : Dev nD) : S8192x4096.Idx → Elt F .f32 :=
  max4 (V m c main_v0) (V m c main_v1) (V m c main_v2) (V m c main_v3)

/-- The printed index maps, decided over the 32 points: every window's block at point t is block row t, block
    column 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point t writes back is block t of the matrix of maxima. -/
theorem written_back (c : Dev nD) (t : Fin cfg0.N) :
    (dats m 0 c).flushed 4 t = ((cfg0.win 4).blk t).view.read (Elt F) (maxMatrix m c) := by
  show (cfg0.win 4).cut (grid0.coords t) ((dats m 0 c).after 4 t) = _
  rw [after0_4]
  unfold out0_4
  rw [View.canon_unit_zero zero_offsets]
  simp only [View.ld_unit_zero (S := S256x4096) zero_offsets]
  rw [payload_eq]
  obtain ⟨a0, b0, a1, b1, a2, b2, a3, b3, a4, b4⟩ := block_index t
  funext j
  show FloatOps.maximumf (FloatOps.maximumf (V m c main_v0 (((cfg0.win 0).blk t).view.emb j)) (V m c main_v1 (((cfg0.win 1).blk t).view.emb j)))
      (FloatOps.maximumf (V m c main_v2 (((cfg0.win 2).blk t).view.emb j)) (V m c main_v3 (((cfg0.win 3).blk t).view.emb j)))
    = FloatOps.maximumf (FloatOps.maximumf (V m c main_v0 (((cfg0.win 4).blk t).view.emb j)) (V m c main_v1 (((cfg0.win 4).blk t).view.emb j)))
      (FloatOps.maximumf (V m c main_v2 (((cfg0.win 4).blk t).view.emb j)) (V m c main_v3 (((cfg0.win 4).blk t).view.emb j)))
  have h0 : ((cfg0.win 0).blk t).view.emb j = ((cfg0.win 4).blk t).view.emb j := by
    funext a; apply Fin.ext
    match a with
    | ⟨0, _⟩ => show win0_0.index t (0 : Fin 2) * 256 + 1 * (j 0).val = win0_4.index t (0 : Fin 2) * 256 + 1 * (j 0).val; omega
    | ⟨1, _⟩ => show win0_0.index t (1 : Fin 2) * 4096 + 1 * (j 1).val = win0_4.index t (1 : Fin 2) * 4096 + 1 * (j 1).val; omega
  have h1 : ((cfg0.win 1).blk t).view.emb j = ((cfg0.win 4).blk t).view.emb j := by
    funext a; apply Fin.ext
    match a with
    | ⟨0, _⟩ => show win0_1.index t (0 : Fin 2) * 256 + 1 * (j 0).val = win0_4.index t (0 : Fin 2) * 256 + 1 * (j 0).val; omega
    | ⟨1, _⟩ => show win0_1.index t (1 : Fin 2) * 4096 + 1 * (j 1).val = win0_4.index t (1 : Fin 2) * 4096 + 1 * (j 1).val; omega
  have h2 : ((cfg0.win 2).blk t).view.emb j = ((cfg0.win 4).blk t).view.emb j := by
    funext a; apply Fin.ext
    match a with
    | ⟨0, _⟩ => show win0_2.index t (0 : Fin 2) * 256 + 1 * (j 0).val = win0_4.index t (0 : Fin 2) * 256 + 1 * (j 0).val; omega
    | ⟨1, _⟩ => show win0_2.index t (1 : Fin 2) * 4096 + 1 * (j 1).val = win0_4.index t (1 : Fin 2) * 4096 + 1 * (j 1).val; omega
  have h3 : ((cfg0.win 3).blk t).view.emb j = ((cfg0.win 4).blk t).view.emb j := by
    funext a; apply Fin.ext
    match a with
    | ⟨0, _⟩ => show win0_3.index t (0 : Fin 2) * 256 + 1 * (j 0).val = win0_4.index t (0 : Fin 2) * 256 + 1 * (j 0).val; omega
    | ⟨1, _⟩ => show win0_3.index t (1 : Fin 2) * 4096 + 1 * (j 1).val = win0_4.index t (1 : Fin 2) * 4096 + 1 * (j 1).val; omega
  rw [h0, h1, h2, h3]

/-- An index of the result matrix is in point t's block iff each coordinate is in the block's range on its axis. -/
theorem mem_block (t : Fin cfg0.N) (i : S8192x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v4).slice (win0_4.rect t)).set ↔ _
  rw [View.set_slice_whole, Rect.mem_set_unit]
  exact Iff.rfl

/-- The 32 row blocks tile the matrix: row r is in the block of point r / 256. -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 32 := N_0
  let t : Fin cfg0.N := ⟨(i 0).val / 256, by rw [hN]; omega⟩
  obtain ⟨a0, b0, a1, b1, a2, b2, a3, b3, a4, b4⟩ := block_index t
  have ht : t.val = (i 0).val / 256 := rfl
  refine ⟨t, flush0_4 t, ?_⟩
  rw [mem_block]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 4096 ≤ (i 1).val ∧ (i 1).val < win0_4.index t (1 : Fin 2) * 4096 + 4096; omega

/-- The result matrix after the region is the matrix of maxima. -/
theorem result_matrix (c : Dev nD) : (dats m 0 c).arrAt 4 cfg0.N = maxMatrix m c :=
  (dats m 0 c).arrAt_eq_of_cover 4 (maxMatrix m c) (fun t _ => written_back m c t) covered

/-- The program's result: the host line after the region re-lays the result matrix, which undoes the re-laying of
    the arguments under the maxima. -/
theorem result_array (c : Dev nD) :
    Pipeline.afterTail₀ cfgs (dats m) 0 (V0 m) [hostOps1] c main_v5
      = max4 (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = maxMatrix m c :=
    (Pipeline.withArrays_arr spec0 launch0.win.arr_inj c _ _ 4).trans (result_matrix m c)
  rw [e]
  unfold maxMatrix
  rw [V_v0, V_v1, V_v2, V_v3]
  exact shapeCast_max4_shapeCast _ _ _ _ _ _

/-- The run, read: the result array at the maxima of the four arguments, the arguments unchanged. -/
theorem run : θ_run defs (onTc (τ := τ) (main (F := F))) ⟨m, fun _ => 0, ρ⟩ fun r => ∀ c : Dev nD,
      r.2.mem ((c.tc : Thread nD τ).loc main_v5)
        = max4 (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v5 (Pipeline.mem_restRefs_of main_v5 (by decide) (by decide))).trans (result_array m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.MaxValue

end
-- ==== Proof.lean ====
/-
  The elementwise maximum of four feature maps f32[32,256,64,64], grouped as max (max f1 f2) (max f3 f4): a tiled kernel
  against the same expression written in one line.

  The kernel re-lays each argument as a matrix f32[8192,4096], takes the maxima block by block over 32 blocks of 256
  rows, and re-lays the result back; the reference takes the three maxima on the arrays as they are. At the ideal
  instance (entries extended reals, the maximum exact) both end with the same function of the arguments: at every index,
  the maximum of the two pairwise maxima of the four entries there. A change of shape renames indices only and the 32
  row blocks tile the 8192 rows, so the kernel's result is the maxima taken in place (Proof/KernelValue.lean over
  Proof/MaxSpec.lean); the reference's result is that term by definition of its three operations. No law of the order
  or of arithmetic is used, so the precondition (finite inputs) is never opened.

  The three frames are the generated ones (the reference's is its generated run with the result dropped); the
  idealization rewrote no operation, so there is nothing to preserve.
-/
import proofs.«131689_j14259291423428_2_alg».proof.Defs
import proofs.«131689_j14259291423428_2_alg».proof.Proof.Gen.Kernel
import proofs.«131689_j14259291423428_2_alg».proof.Proof.Gen.Kernel.Skeleton
import proofs.«131689_j14259291423428_2_alg».proof.Proof.Gen.Kernel.Launch
import proofs.«131689_j14259291423428_2_alg».proof.Proof.Gen.Kernel.Points
import proofs.«131689_j14259291423428_2_alg».proof.Proof.Gen.Kernel.Frame
import proofs.«131689_j14259291423428_2_alg».proof.Proof.Gen.KernelIdeal
import proofs.«131689_j14259291423428_2_alg».proof.Proof.Gen.KernelIdeal.Skeleton
import proofs.«131689_j14259291423428_2_alg».proof.Proof.Gen.KernelIdeal.Launch
import proofs.«131689_j14259291423428_2_alg».proof.Proof.Gen.KernelIdeal.Points
import proofs.«131689_j14259291423428_2_alg».proof.Proof.Gen.KernelIdeal.Frame
import proofs.«131689_j14259291423428_2_alg».proof.Proof.Gen.ReferenceIdeal
import proofs.«131689_j14259291423428_2_alg».proof.Proof.Gen.ReferenceIdeal.Run
import proofs.«131689_j14259291423428_2_alg».proof.Proof.Gen.ReferenceIdeal.Read
import proofs.«131689_j14259291423428_2_alg».proof.Proof.Gen.Pre_finite_inputs
import proofs.«131689_j14259291423428_2_alg».proof.Proof.MaxSpec
import proofs.«131689_j14259291423428_2_alg».proof.Proof.KernelValue
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- And the idealized reference: its run, with what it says of the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the four arguments, both idealized programs end with the result array at the maxima of
    the four arguments, index by index: the kernel's by its value read off the run, the reference's because its three
    operations spell that term. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.MaxOfFour.max4 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.MaxValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
